-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S800000 .f32) (main_arg3 : FVec F S128x64 .f32) (main_arg4 : FVec F S64 .f32) (main_arg5 : FVec F S64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S50000x64 : Shape := ⟨2, ![50000, 64]⟩
abbrev S5000x128 : Shape := ⟨2, ![5000, 128]⟩
abbrev S5000x64 : Shape := ⟨2, ![5000, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S25000x64 : Shape := ⟨2, ![25000, 64]⟩
abbrev S64x64 : Shape := ⟨2, ![64, 64]⟩
abbrev S1x64 : Shape := ⟨2, ![1, 64]⟩

abbrev nBuf : Space → Nat
  | .hbm => 37
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x1, .f32⟩
  | .hbm, ⟨23, _⟩ => ⟨S800000x64, .f32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S25000x64, .f32⟩
  | .hbm, ⟨30, _⟩ => ⟨S25000x64, .f32⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S25000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S1x64, .f32⟩
  | .local _ .vmem, ⟨11, _⟩ => ⟨S64x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S50000x64_S25000x64_0_0 : S50000x64.Slices ![0, 0] S25000x64
  slices_S50000x64_S25000x64_25000_0 : S50000x64.Slices ![25000, 0] S25000x64
  slices_S128x64_S64x64_0_0 : S128x64.Slices ![0, 0] S64x64
  slices_S128x64_S64x64_64_0 : S128x64.Slices ![64, 0] S64x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S25000x64.size a
  hwx1_0 : ∀ i : grid1.Coords, EltTy.bits .f32 = 32 ∨ (Rect.block (s := S25000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S25000x64.size a
  hwx1_1 : ∀ i : grid1.Coords, EltTy.bits .f32 = 32 ∨ (Rect.block (s := S25000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S25000x64.size a
  hwx1_7 : ∀ i : grid1.Coords, EltTy.bits .f32 = 32 ∨ (Rect.block (s := S25000x64) S5000x64.size (cc1_transform_7 i) (hinb1_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S50000x64 : Shape := ⟨2, ![50000, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S25000x64 : Shape := ⟨2, ![25000, 64]⟩
abbrev S25000x128 : Shape := ⟨2, ![25000, 128]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x1, .f32⟩
  | .hbm, ⟨23, _⟩ => ⟨S800000x64, .f32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S_, .f32⟩
  | .hbm, ⟨33, _⟩ => ⟨S50000x64, .f32⟩
  | .hbm, ⟨34, _⟩ => ⟨S50000x64, .i1⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S25000x64, .f32⟩
  | .hbm, ⟨40, _⟩ => ⟨S25000x64, .f32⟩
  | .hbm, ⟨41, _⟩ => ⟨S25000x128, .f32⟩
  | .hbm, ⟨42, _⟩ => ⟨S25000x64, .f32⟩
  | .hbm, ⟨43, _⟩ => ⟨S1x64, .f32⟩
  | .hbm, ⟨44, _⟩ => ⟨S25000x64, .f32⟩
  | .hbm, ⟨45, _⟩ => ⟨S25000x64, .f32⟩
  | .hbm, ⟨46, _⟩ => ⟨S_, .f32⟩
  | .hbm, ⟨47, _⟩ => ⟨S25000x64, .f32⟩
  | .hbm, ⟨48, _⟩ => ⟨S25000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_cst : Ref sig .tc := ⟨.hbm, 46, rfl⟩
abbrev main_call1_v0 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x64_S25000x64_0_0 : S50000x64.Slices ![0, 0] S25000x64
  slices_S50000x64_S25000x64_25000_0 : S50000x64.Slices ![25000, 0] S25000x64
  concatenates_S25000x64_S25000x64_S25000x128_d1 : Shape.Concatenates [S25000x64, S25000x64] S25000x128 1
  bcast_S1x64_S25000x64_0_1 : S1x64.BroadcastsInDim S25000x64 (![0, 1] : Fin 2 → Fin S25000x64.rank)
  bcast_S_S25000x64 : S_.BroadcastsInDim S25000x64 (![] : Fin 0 → Fin S25000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S25000x128_S128x64_S25000x64_1_0_0_1_n_n_wf : DotDims.WF S25000x128 S128x64 S25000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S25000x128_S128x64_S25000x64_1_0_0_1_n_n : DotDims S25000x128 S128x64 S25000x64 where
  lhsContracting := [1]
  rhsContracting := [0]
  lhsNonContracting := [0]
  rhsNonContracting := [1]
  lhsBatch := []
  rhsBatch := []
  wf := dot_S25000x128_S128x64_S25000x64_1_0_0_1_n_n_wf

class Facts : Prop extends Facts₀ where

variable [Facts]
-- ==== Proof.KernelRun.lean ====
/-
  The idealized kernel's run, read to the end: every weakly fair execution of the program terminates, and in the final
  memory every buffer that outlives the program holds the contents the last segment boundary names.

  The program is three segments: the first kernel region (the node features times the first weights, row block by row
  block), a stretch of host operations (the edge gather, scaling and scatter-add, the two halves, the reshaped rows), and
  the second kernel region.  The contents at the boundaries fold through them: the launch memory, then the first
  region's output array at what its write-backs leave, then the host operations applied to that, then the second
  region's output array at what its write-backs leave.  The result array and the argument arrays are among the
  buffers read at the end, so both the value and the frame follow from this one run.
-/
import proofs.«136194_j58334245814643_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates without a fault, and every buffer that is not scoped to
    a region ends at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hprng, -⟩, -⟩
      imodintro
      isplitl [Hbufs]
      · iexact Hbufs
      isplitl [Hprng]
      · iexists _
        iexact Hprng
      iexists ∅
      iexact Howes)
    (QY := fun c s => ∀ b ∈ Pipeline.ucRefs τ sig, s.mem (((c : Thread nD τ)).1, b) = W3 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W3 m ρ c) s')
      isplitl [Hbufs]
      · iexact Hbufs
      iexact Hstate)
    (hQ := fun s h => h)

end Cert.KernelIdeal.WholeRun

end
-- ==== Proof.MatRegion.lean ====
/-
  The first kernel region's output array as one function of the arrays it reads.

  The region multiplies the node features `X` (50000 × 128) by the weights `W` (128 × 64), ten row blocks of 5000 rows
  each: at point `t` the body loads rows 5000·t … 5000·t + 4999 of `X` and the whole of `W`, forms their product
  into a zero accumulator (the change of float format before the product is the identity on extended reals) and
  stores the 5000 × 64 result as row block `t` of the output.  Entry (p, q) of a block's product is the sum over
  k < 128 of the block's entry (p, k) times W(k, q); row p of block t is row 5000·t + p of X; the ten blocks tile
  the 50000 rows.  So the array ends holding the whole product, `product X W`.
-/
import proofs.«136194_j58334245814643_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatRegion

open Cert.KernelIdeal Cert.KernelIdeal.Gen
open Idealize.ShloMosaic Idealize.ShloMosaic.ValueIdx Idealize.ShloMosaic.TcCoe Idealize.SL.Sem
open Idealize.ShloMosaic.Pipeline (Dat)

/-- The whole matrix product, entry by entry: (n, q) ↦ ∑ k < 128, X(n, k) · W(k, q). -/
def product (X : FVec Ideal ⟨2, ![50000, 128]⟩ .f32) (W : FVec Ideal ⟨2, ![128, 64]⟩ .f32) :
    FVec Ideal ⟨2, ![50000, 64]⟩ .f32 :=
  fun i => ∑ k : Fin 128, X (ix2 (i 0 : Fin 50000) k) * W (ix2 k (i 1 : Fin 64))

local notation "D0" => dot_S5000x128_S128x64_S5000x64_1_0_0_1_n_n

/-- The left operand's row coordinate at output index `i` is `i`'s row. -/
theorem lhs_row (i : S5000x64.Idx) (κ : (D0).contr.Idx) : ((D0).lhsIdx i κ 0).val = (i 0).val := by
  unfold DotDims.lhsIdx
  rw [dif_neg (show ¬(0 : Fin S5000x128.rank) ∈ (D0).lhsBatch by decide),
    dif_pos (show (0 : Fin S5000x128.rank) ∈ (D0).lhsNonContracting by decide)]
  rfl

/-- The right operand's column coordinate at output index `i` is `i`'s column. -/
theorem rhs_col (i : S5000x64.Idx) (κ : (D0).contr.Idx) : ((D0).rhsIdx i κ 1).val = (i 1).val := by
  unfold DotDims.rhsIdx
  rw [dif_neg (show ¬(1 : Fin S128x64.rank) ∈ (D0).rhsBatch by decide),
    dif_pos (show (1 : Fin S128x64.rank) ∈ (D0).rhsNonContracting by decide)]
  rfl

/-- The body's stored value at (p, q): the sum over k of the loaded row block's (p, k) times the loaded weights'
    (k, q). -/
theorem pay_at (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  refine (Ideal.matmul_constant_zero_apply D0 none _ _ (ix2 p q)).trans ?_
  rw [← Equiv.sum_comp (ValueIdx.contrEquiv1 D0 128 rfl rfl).symm]
  refine Finset.sum_congr rfl fun k _ => ?_
  have hk := ValueIdx.contrEquiv1_symm_val D0 128 rfl rfl k
  have el : (D0).lhsIdx (ix2 p q) ((ValueIdx.contrEquiv1 D0 128 rfl rfl).symm k) = ix2 p k := funext fun a => Fin.ext (by
    match a with
    | ⟨0, _⟩ => exact lhs_row _ _
    | ⟨1, _⟩ => exact ((D0).lhsIdx_val_of_single rfl _ _).trans hk)
  have er : (D0).rhsIdx (ix2 p q) ((ValueIdx.contrEquiv1 D0 128 rfl rfl).symm k) = ix2 k q := funext fun a => Fin.ext (by
    match a with
    | ⟨0, _⟩ => exact ((D0).rhsIdx_val_of_single rfl _ _).trans hk
    | ⟨1, _⟩ => exact rhs_col _ _)
  show x0 _ * x1 _ = _
  rw [el, er]

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the ten points: the feature window and the output window move together along the rows, at
    block `t`; neither moves along the columns; the weight window stays at the origin. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem index_onto : ∀ r : Fin 10, ∃ t : Fin cfg0.N, win0_2.index t = ![r.val, 0] :=
  (by decide +kernel : ∀ r : Fin 10, ∃ t : Fin grid0.N, win0_2.index t = ![r.val, 0])

/-- What point `t` writes back is block `t` of the whole product of the arrays the region finds. -/
theorem flushed_eq (c : Dev nD) (t : Fin cfg0.N) :
    (dat0 (F := Ideal) V c).flushed 2 t
      = ((cfg0.win 2).blk t).view.read (Elt Ideal) (product (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := index_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = product (V c main_arg0) (V c main_arg3) (((cfg0.win 2).blk t).view.emb (ix2 p q))
  refine (pay_at (iblk0 V c 0 t) (iblk0 V c 1 t) p q).trans ?_
  unfold product
  refine Finset.sum_congr rfl fun k _ => ?_
  have h0 : ((cfg0.win 0).blk t).view.emb (ix2 p k)
      = ix2 ((((cfg0.win 2).blk t).view.emb (ix2 p q)) 0 : Fin 50000) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q)
      = ix2 k ((((cfg0.win 2).blk t).view.emb (ix2 p q)) 1 : Fin 64) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  refine congrArg₂ (fun a b : EReal => a * b) ?_ ?_
  · show V c main_arg0 (((cfg0.win 0).blk t).view.emb (ix2 p k)) = _
    exact congrArg (V c main_arg0) h0
  · show V c main_arg3 (((cfg0.win 1).blk t).view.emb (ix2 k q)) = _
    exact congrArg (V c main_arg3) h1

/-- An index of the output array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Row `n` lies in row block `n / 5000`: every index of the output array is in some point's block. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the whole product of the feature array and the weight array it found. -/
theorem region_array (c : Dev nD) :
    (dat0 (F := Ideal) V c).arrAt 2 cfg0.N = product (V c main_arg0) (V c main_arg3) :=
  (dat0 (F := Ideal) V c).arrAt_eq_of_cover 2 (product (V c main_arg0) (V c main_arg3))
    (fun t _ => flushed_eq V c t) covered

end Cert.KernelIdeal.MatRegion

end
-- ==== Proof.LayerSpec.lean ====
/-
  The node layer after the edge aggregation, as one function of its inputs, index by index.

  Write `A` for the aggregated node features (50000 nodes × 64 channels), `b` for the bias added to them, `s` for
  the per-channel slope, `W` for the 128 × 64 weights and `d` for the last bias.  Each entry is first biased and
  passed through the slope nonlinearity: with `u = A(n, k) + b(k)`, the entry becomes `u` where `u > 0` and
  `s(k) · u` elsewhere (`act`).  Node `p` of the first half (p < 25000) is then joined with node `p + 25000` of the
  second half into one 128-long row, multiplied by `W`, biased by `d` and clamped below at zero.  Because the joined
  row is the first half's 64 entries followed by the second half's, its product with `W` is the sum over the first
  64 rows of `W` against the first node plus the sum over the last 64 rows against the second: a sum over 128 terms
  regrouped as two sums over 64 (`sum_halves`), which needs only that addition of extended reals is associative
  and commutative, no finiteness.
-/
import Idealize.ShloMosaic.PureOps.Ideal
import Idealize.ShloMosaic.PureOps.Ideal.Laws
import Idealize.ShloMosaic.Lib.ValueIdx

noncomputable section

open scoped BigOperators

namespace Cert.NodeLayer

open Idealize.ShloMosaic Idealize.ShloMosaic.ValueIdx

/-- The float zero both programs compare against and clamp at (the all-zero 32-bit pattern). -/
abbrev zeroF : EReal := Ideal.ofBits .f32 0x00000000#32

/-- One aggregated entry `a`, biased by `b`, through the slope nonlinearity with slope `s`: the biased value where
    it is greater than zero (the ordered comparison's bit), the slope times it elsewhere. -/
def act (a b s : EReal) : EReal :=
  Scalar.select (FloatOps.cmpf (F := Ideal) (φ := .f32) .ogt (a + b) zeroF) (a + b) (s * (a + b))

/-- The layer's entry (p, q) from the two halves given separately: `A1`, `A2` the halves of the aggregated array,
    `b`, `s`, `d` as single rows, `W1`, `W2` the upper and lower 64 rows of the weights. -/
def halvesAt (A1 A2 : FVec Ideal ⟨2, ![25000, 64]⟩ .f32) (b s : FVec Ideal ⟨2, ![1, 64]⟩ .f32)
    (W1 W2 : FVec Ideal ⟨2, ![64, 64]⟩ .f32) (d : FVec Ideal ⟨2, ![1, 64]⟩ .f32) (p : Fin 25000) (q : Fin 64) : EReal :=
  max ((∑ k : Fin 64, act (A1 (ix2 p k)) (b (ix2 (0 : Fin 1) k)) (s (ix2 (0 : Fin 1) k)) * W1 (ix2 k q)
        + ∑ k : Fin 64, act (A2 (ix2 p k)) (b (ix2 (0 : Fin 1) k)) (s (ix2 (0 : Fin 1) k)) * W2 (ix2 k q))
      + d (ix2 (0 : Fin 1) q)) zeroF

/-- The same as an array. -/
def halves (A1 A2 : FVec Ideal ⟨2, ![25000, 64]⟩ .f32) (b s : FVec Ideal ⟨2, ![1, 64]⟩ .f32)
    (W1 W2 : FVec Ideal ⟨2, ![64, 64]⟩ .f32) (d : FVec Ideal ⟨2, ![1, 64]⟩ .f32) : FVec Ideal ⟨2, ![25000, 64]⟩ .f32 :=
  fun i => halvesAt A1 A2 b s W1 W2 d (i 0) (i 1)

/-- The layer's entry (p, q) from the whole arrays: node `p` against the upper 64 rows of `W`, node `p + 25000`
    against the lower 64. -/
def layerAt (A : FVec Ideal ⟨2, ![50000, 64]⟩ .f32) (b s : FVec Ideal ⟨1, ![64]⟩ .f32)
    (W : FVec Ideal ⟨2, ![128, 64]⟩ .f32) (d : FVec Ideal ⟨1, ![64]⟩ .f32) (p : Fin 25000) (q : Fin 64) : EReal :=
  max ((∑ k : Fin 64, act (A (ix2 (⟨p.val, by have := p.isLt; omega⟩ : Fin 50000) k)) (b (ix1 k)) (s (ix1 k))
            * W (ix2 (⟨k.val, by have := k.isLt; omega⟩ : Fin 128) q)
        + ∑ k : Fin 64, act (A (ix2 (⟨p.val + 25000, by have := p.isLt; omega⟩ : Fin 50000) k)) (b (ix1 k)) (s (ix1 k))
            * W (ix2 (⟨k.val + 64, by have := k.isLt; omega⟩ : Fin 128) q))
      + d (ix1 q)) zeroF

/-- The same as an array. -/
def layer (A : FVec Ideal ⟨2, ![50000, 64]⟩ .f32) (b s : FVec Ideal ⟨1, ![64]⟩ .f32)
    (W : FVec Ideal ⟨2, ![128, 64]⟩ .f32) (d : FVec Ideal ⟨1, ![64]⟩ .f32) : FVec Ideal ⟨2, ![25000, 64]⟩ .f32 :=
  fun i => layerAt A b s W d (i 0) (i 1)

/-- A sum over 128 consecutive positions is the sum over the first 64 plus the sum over the last 64. -/
theorem sum_halves {M : Type*} [AddCommMonoid M] (f : Fin 128 → M) :
    ∑ k : Fin 128, f k
      = ∑ k : Fin 64, f ⟨k.val, by have := k.isLt; omega⟩ + ∑ k : Fin 64, f ⟨k.val + 64, by have := k.isLt; omega⟩ := by
  have h := Fin.sum_univ_add (a := 64) (b := 64) (fun i : Fin (64 + 64) => f i)
  refine h.trans ?_
  refine congrArg₂ (· + ·) (Finset.sum_congr rfl fun k _ => congrArg f (Fin.ext rfl))
    (Finset.sum_congr rfl fun k _ => congrArg f (Fin.ext ?_))
  show 64 + k.val = k.val + 64
  omega

end Cert.NodeLayer

end
-- ==== Proof.CatRegion.lean ====
/-
  The second kernel region's result as one function of the arrays the region finds.

  The region runs over five grid points. Point t takes rows 5000·t … 5000·t + 4999 of the two halves of the aggregated
  node features (25000 × 64 each), and, whole, the bias row and the slope row (1 × 64), the upper and the lower 64 rows
  of the weights (64 × 64 each) and the last bias row (1 × 64). On its block it adds the bias to every entry, passes the
  sum through the slope nonlinearity, multiplies the first half's rows by the upper weights and the second half's rows
  by the lower weights, adds the two products and the last bias, and clamps below at zero; the block it writes back is
  rows 5000·t … 5000·t + 4999 of the result.

  Entry (p, q) of a block's result depends only on row p of the two half blocks, so it is entry (5000·t + p, q) of
  `Cert.NodeLayer.halves` of the whole arrays: each matrix product read at an entry is the sum over the 64 shared
  positions, a change of float format is the identity on extended reals, and the broadcast rows read their one row.
  The five row blocks tile the 25000 rows (row r is in the block of point r / 5000), so after the run the result array
  is `halves` of the arrays everywhere.
-/
import proofs.«136194_j58334245814643_1_alg».proof.Proof.Gen.KernelIdeal.Frame
import proofs.«136194_j58334245814643_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.CatRegion

open Cert.KernelIdeal Cert.KernelIdeal.Gen Idealize.ShloMosaic Idealize.ShloMosaic.ValueIdx Idealize.ShloMosaic.TcCoe Idealize.SL.Sem
open Idealize.ShloMosaic.Pipeline (Dat)
open Cert.NodeLayer (act zeroF halves halvesAt)

/-! ## One block's result, entry by entry -/

/-- In the product of a 5000 × 64 block with a 64 × 64 matrix, entry (p, ·) of the result reads row p of the block … -/
theorem lhs_row (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … at the shared position, … -/
theorem lhs_col (i : S5000x64.Idx) (r : dot_S5000x64_S64x64_S5000x64_1_0_0_1_n_n.contr.Idx) :
    (dot_S5000x64_S64x64_S5000x64_1_0_0_1_n_n.lhsIdx i r 1).val = (r ⟨0, by decide⟩).val :=
  dot_S5000x64_S64x64_S5000x64_1_0_0_1_n_n.lhsIdx_val_of_single rfl i r
/-- … against the matrix's row at the shared position … -/
theorem rhs_row (i : S5000x64.Idx) (r : dot_S5000x64_S64x64_S5000x64_1_0_0_1_n_n.contr.Idx) :
    (dot_S5000x64_S64x64_S5000x64_1_0_0_1_n_n.rhsIdx i r 0).val = (r ⟨0, by decide⟩).val :=
  dot_S5000x64_S64x64_S5000x64_1_0_0_1_n_n.rhsIdx_val_of_single rfl i r
/-- … in column q of the matrix for entry (·, q). -/
theorem rhs_col (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A product of a 5000 × 64 block with a 64 × 64 matrix, accumulated from zero, read at (p, q): the sum over the
    64 shared positions of row p of the block against column q of the matrix. -/
theorem matmul_at (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact lhs_row _ _
      | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (rhs_row _ _).trans hk
      | ⟨1, _⟩ => exact rhs_col _ _)
  rw [el, er]

/-- What one grid point computes from its blocks, read at (p, q): rows p of the two half blocks, biased and passed
    through the slope nonlinearity, against column q of the upper and of the lower weights, plus the last bias,
    clamped below at zero. -/
theorem pay_at (x2 x3 x6 : Vec Ideal S1x64 .f32) (x0 x1 : Vec Ideal S5000x64 .f32) (x4 x5 : Vec Ideal S64x64 .f32)
    (p : Fin 5000) (q : Fin 64) :
    k1_pay1 x2 x3 x0 x1 x4 x5 x6 (ix2 p q)
      = max ((∑ k : Fin 64, act (x0 (ix2 p k)) (x2 (ix2 0 k)) (x3 (ix2 0 k)) * x4 (ix2 k q)
          + ∑ k : Fin 64, act (x1 (ix2 p k)) (x2 (ix2 0 k)) (x3 (ix2 0 k)) * x5 (ix2 k q)) + x6 (ix2 0 q)) zeroF := by
  unfold k1_pay1
  simp only [maximumf_apply, addf_apply, broadcast_apply, matmul_at, truncf_apply, select_apply, cmpf_apply, mulf_apply,
    shapeCast_self, broadcastTo_1b_ab_apply]
  rfl

/-! ## From the blocks to the array

Grid point t handles rows 5000·t … 5000·t + 4999 of both halves and of the result; the three single rows and the two
weight matrices are read whole at every point. -/

theorem zeros : (![0, 0] : Fin 2 → Nat) = fun _ => 0 := funext fun a => by fin_cases a <;> rfl

/-- The block positions over the grid: the two halves' row blocks move with the result's, whose row block at point t
    is the t-th; every other block position is zero. -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks

variable (V : (c : Dev nD) → (b : Ref sig .tc) → Buf (Elt Ideal) ((c : Thread nD τ).loc b))

/-- Row p of the first half's block at point t is row 5000·t + p of the first half. -/
theorem read_first (c : Dev nD) (t : Fin cfg1.N) (p : Fin 5000) (k : Fin 64) (P : Fin 25000) (hP : P.val = t.val * 5000 + p.val) :
    iblk1 V c 0 t (ix2 p k) = V c main_v18 (ix2 P k) := by
  obtain ⟨e00, e01, -⟩ := block_positions t
  have h : ((cfg1.win 0).blk t).view.emb (ix2 p k) = ix2 P k := by
    funext a; apply Fin.ext
    match a with
    | ⟨0, _⟩ => show win1_0.index t (0 : Fin 2) * 5000 + 1 * p.val = P.val; omega
    | ⟨1, _⟩ => show win1_0.index t (1 : Fin 2) * 64 + 1 * k.val = k.val; omega
  show V c main_v18 (((cfg1.win 0).blk t).view.emb (ix2 p k)) = V c main_v18 (ix2 P k)
  rw [h]

/-- Row p of the second half's block at point t is row 5000·t + p of the second half. -/
theorem read_second (c : Dev nD) (t : Fin cfg1.N) (p : Fin 5000) (k : Fin 64) (P : Fin 25000) (hP : P.val = t.val * 5000 + p.val) :
    iblk1 V c 1 t (ix2 p k) = V c main_v19 (ix2 P k) := by
  obtain ⟨-, -, e10, e11, -⟩ := block_positions t
  have h : ((cfg1.win 1).blk t).view.emb (ix2 p k) = ix2 P k := by
    funext a; apply Fin.ext
    match a with
    | ⟨0, _⟩ => show win1_1.index t (0 : Fin 2) * 5000 + 1 * p.val = P.val; omega
    | ⟨1, _⟩ => show win1_1.index t (1 : Fin 2) * 64 + 1 * k.val = k.val; omega
  show V c main_v19 (((cfg1.win 1).blk t).view.emb (ix2 p k)) = V c main_v19 (ix2 P k)
  rw [h]

/-- The bias row is read whole at every point. -/
theorem read_bias (c : Dev nD) (t : Fin cfg1.N) (y : S1x64.Idx) : iblk1 V c 2 t y = V c main_v22 y := by
  obtain ⟨-, -, -, -, e0, e1, -⟩ := block_positions t
  have h : ((cfg1.win 2).blk t).view.emb y = y := by
    funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega
  show V c main_v22 (((cfg1.win 2).blk t).view.emb y) = V c main_v22 y
  rw [h]

/-- The slope row is read whole at every point. -/
theorem read_slope (c : Dev nD) (t : Fin cfg1.N) (y : S1x64.Idx) : iblk1 V c 3 t y = V c main_v23 y := by
  obtain ⟨-, -, -, -, -, -, e0, e1, -⟩ := block_positions t
  have h : ((cfg1.win 3).blk t).view.emb y = y := by
    funext a; apply Fin.ext
    match a with
    | ⟨0, _⟩ => show win1_3.index t (0 : Fin 2) * 1 + 1 * (y 0).val = (y 0).val; omega
    | ⟨1, _⟩ => show win1_3.index t (1 : Fin 2) * 64 + 1 * (y 1).val = (y 1).val; omega
  show V c main_v23 (((cfg1.win 3).blk t).view.emb y) = V c main_v23 y
  rw [h]

/-- The upper weights are read whole at every point. -/
theorem read_upper (c : Dev nD) (t : Fin cfg1.N) (y : S64x64.Idx) : iblk1 V c 4 t y = V c main_v20 y := by
  obtain ⟨-, -, -, -, -, -, -, -, e0, e1, -⟩ := block_positions t
  have h : ((cfg1.win 4).blk t).view.emb y = y := by
    funext a; apply Fin.ext
    match a with
    | ⟨0, _⟩ => show win1_4.index t (0 : Fin 2) * 64 + 1 * (y 0).val = (y 0).val; omega
    | ⟨1, _⟩ => show win1_4.index t (1 : Fin 2) * 64 + 1 * (y 1).val = (y 1).val; omega
  show V c main_v20 (((cfg1.win 4).blk t).view.emb y) = V c main_v20 y
  rw [h]

/-- The lower weights are read whole at every point. -/
theorem read_lower (c : Dev nD) (t : Fin cfg1.N) (y : S64x64.Idx) : iblk1 V c 5 t y = V c main_v21 y := by
  obtain ⟨-, -, -, -, -, -, -, -, -, -, e0, e1, -⟩ := block_positions t
  have h : ((cfg1.win 5).blk t).view.emb y = y := by
    funext a; apply Fin.ext
    match a with
    | ⟨0, _⟩ => show win1_5.index t (0 : Fin 2) * 64 + 1 * (y 0).val = (y 0).val; omega
    | ⟨1, _⟩ => show win1_5.index t (1 : Fin 2) * 64 + 1 * (y 1).val = (y 1).val; omega
  show V c main_v21 (((cfg1.win 5).blk t).view.emb y) = V c main_v21 y
  rw [h]

/-- The last bias row is read whole at every point. -/
theorem read_last (c : Dev nD) (t : Fin cfg1.N) (y : S1x64.Idx) : iblk1 V c 6 t y = V c main_v24 y := by
  obtain ⟨-, -, -, -, -, -, -, -, -, -, -, -, e0, e1, -⟩ := block_positions t
  have h : ((cfg1.win 6).blk t).view.emb y = y := by
    funext a; apply Fin.ext
    match a with
    | ⟨0, _⟩ => show win1_6.index t (0 : Fin 2) * 1 + 1 * (y 0).val = (y 0).val; omega
    | ⟨1, _⟩ => show win1_6.index t (1 : Fin 2) * 64 + 1 * (y 1).val = (y 1).val; omega
  show V c main_v24 (((cfg1.win 6).blk t).view.emb y) = V c main_v24 y
  rw [h]

/-- Entry (p, q) of the result's block at point t is entry (5000·t + p, q) of the result. -/
theorem out_entry (t : Fin cfg1.N) (p : Fin 5000) (q : Fin 64) (P : Fin 25000) (hP : P.val = t.val * 5000 + p.val) :
    ((cfg1.win 7).blk t).view.emb (ix2 p q) = ix2 P q := by
  obtain ⟨-, -, -, -, -, -, -, -, -, -, -, -, -, -, e0, e1⟩ := block_positions t
  funext a; apply Fin.ext
  match a with
  | ⟨0, _⟩ => show win1_7.index t (0 : Fin 2) * 5000 + 1 * p.val = P.val; omega
  | ⟨1, _⟩ => show win1_7.index t (1 : Fin 2) * 64 + 1 * q.val = q.val; omega

/-- What point t writes back is its block of the layer's array. -/
theorem flushed_eq (c : Dev nD) (t : Fin cfg1.N) :
    (dat1 (F := Ideal) V c).flushed 7 t
      = ((cfg1.win 7).blk t).view.read (Elt Ideal)
          (halves (V c main_v18) (V c main_v19) (V c main_v22) (V c main_v23) (V c main_v20) (V c main_v21) (V c main_v24)) := by
  show (cfg1.win 7).cut (grid1.coords t) ((dat1 V c).after 7 t) = _
  rw [after1_7]
  unfold out1_7
  rw [View.canon_unit_zero zeros]
  simp only [View.ld_unit_zero (S := S1x64) zeros, View.ld_unit_zero (S := S5000x64) zeros, View.ld_unit_zero (S := S64x64) zeros]
  funext j
  obtain ⟨p, q, rfl⟩ : ∃ (p : Fin 5000) (q : Fin 64), j = ix2 p q := ⟨j 0, j 1, eq_ix2 j⟩
  have ht : t.val < 5 := by have h := t.isLt; have hN : cfg1.N = 5 := N_1; omega
  obtain ⟨P, hP⟩ : ∃ P : Fin 25000, P.val = t.val * 5000 + p.val := ⟨⟨t.val * 5000 + p.val, by have := p.isLt; omega⟩, rfl⟩
  show k1_pay1 (iblk1 V c 2 t) (iblk1 V c 3 t) (iblk1 V c 0 t) (iblk1 V c 1 t) (iblk1 V c 4 t) (iblk1 V c 5 t) (iblk1 V c 6 t) (ix2 p q)
    = halves (V c main_v18) (V c main_v19) (V c main_v22) (V c main_v23) (V c main_v20) (V c main_v21) (V c main_v24)
        (((cfg1.win 7).blk t).view.emb (ix2 p q))
  rw [out_entry t p q P hP]
  refine (pay_at _ _ _ _ _ _ _ p q).trans ?_
  show _ = halvesAt (V c main_v18) (V c main_v19) (V c main_v22) (V c main_v23) (V c main_v20) (V c main_v21) (V c main_v24) P q
  unfold halvesAt
  simp only [read_first V c t p _ P hP, read_second V c t p _ P hP, read_bias V c t, read_slope V c t, read_upper V c t,
    read_lower V c t, read_last V c t]

end Blocks

/-- An index of the result lies in point t's block exactly when each coordinate lies in the block's range. -/
theorem mem_blk (t : Fin cfg1.N) (i : S25000x64.Idx) :
    i ∈ ((cfg1.win 7).blk t).view.set
      ↔ ∀ a : Fin 2, win1_7.index t a * S5000x64.size a ≤ (i a).val ∧ (i a).val < win1_7.index t a * S5000x64.size a + S5000x64.size a := by
  show i ∈ ((View.whole main_v25).slice (win1_7.rect t)).set ↔ _
  rw [View.set_slice_whole, Rect.mem_set_unit]
  exact Iff.rfl

/-- Row r of the result lies in the block of point r / 5000, and every point writes its block back. -/
theorem cover (i : S25000x64.Idx) :
    ∃ t : Fin cfg1.N, (cfg1.win 7).flush t = true ∧ i ∈ ((cfg1.win 7).blk t).view.set := by
  have hi0 : (i 0).val < 25000 := (i 0).isLt
  have hi1 : (i 1).val < 64 := (i 1).isLt
  have hN : cfg1.N = 5 := N_1
  obtain ⟨t, hv⟩ : ∃ t : Fin cfg1.N, t.val = (i 0).val / 5000 := ⟨⟨(i 0).val / 5000, by omega⟩, rfl⟩
  obtain ⟨-, -, -, -, -, -, -, -, -, -, -, -, -, -, e0, e1⟩ := block_positions t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 64 ≤ (i 1).val ∧ (i 1).val < win1_7.index t (1 : Fin 2) * 64 + 64
    omega

/-- THE REGION'S RESULT: after the five points have written their blocks back, the result array holds the layer of the
    arrays the region found — the two halves, the bias and slope rows, the upper and lower weights, the last bias. -/
theorem region_array (V : (c : Dev nD) → (b : Ref sig .tc) → Buf (Elt Ideal) ((c : Thread nD τ).loc b)) (c : Dev nD) :
    (dat1 (F := Ideal) V c).arrAt 7 cfg1.N
      = Cert.NodeLayer.halves (V c main_v18) (V c main_v19) (V c main_v22) (V c main_v23) (V c main_v20) (V c main_v21) (V c main_v24) :=
  (dat1 (F := Ideal) V c).arrAt_eq_of_cover 7
    (halves (V c main_v18) (V c main_v19) (V c main_v22) (V c main_v23) (V c main_v20) (V c main_v21) (V c main_v24))
    (fun t _ => flushed_eq V c t) cover

end Cert.KernelIdeal.CatRegion

end
-- ==== Proof.EdgeStretch.lean ====
/-
  The host operations between the two kernel regions, as functions of the arrays they read.

  The edge table `e` (2 × 800000 integers) has the source nodes in its row 0 and the destination nodes in its row 1;
  `w` holds one weight per edge and `h` one 64-channel row per node.  A source index below zero is first moved up by
  the node count 50000 (`sourceIndex`).  Each edge's message is the gathered row of `h` at its source times the
  edge's weight (`messages`), and the aggregated array adds every message into the row of its destination,
  starting from zeros (`aggregate`).  Which entry a gather or a scatter-add touches depends on the integer values,
  so these two stay closed here: both programs apply the same two operations to the same operands, and that is all
  the proof uses of them.  After the aggregation the stretch cuts the array into its two row halves, cuts the second
  weight matrix into its upper and lower 64 rows, and views the three 64-vectors as single rows.
-/
import proofs.«136194_j58334245814643_1_alg».proof.Proof.Gen.KernelIdeal.Frame
import Idealize.ShloMosaic.Lib.StableHlo.Run

set_option maxRecDepth 16384

noncomputable section

namespace Cert.KernelIdeal.EdgeStretch

open Cert.KernelIdeal Cert.KernelIdeal.Gen
open Idealize.ShloMosaic Idealize.ShloMosaic.TcCoe Idealize.SL.Sem Idealize.ShloMosaic.StableHlo

variable {F : FTy → Type} [FloatOps F]

/-- Row 0 of the edge table as a flat vector: the source nodes. -/
def sourceRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge table as a flat vector: the destination nodes. -/
def destRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The source nodes with a negative index moved up by the node count. -/
def sourceIndex (e : (⟨S2x800000, .i32⟩ : BufTy).Contents (Elt F)) : (⟨S800000, .i32⟩ : BufTy).Contents (Elt F) :=
  select (cmpi .slt (sourceRow (F := F) e) (broadcastInDim S800000 ![] bcast_S_S800000 (constantI S_ 32 0#32)))
    (addi (sourceRow (F := F) e) (broadcastInDim S800000 ![] bcast_S_S800000 (constantI S_ 32 50000#32)))
    (sourceRow (F := F) e)

/-- One message per edge: the source node's row of `h` times the edge's weight. -/
def messages (h : (⟨S50000x64, .f32⟩ : BufTy).Contents (Elt F)) (e : (⟨S2x800000, .i32⟩ : BufTy).Contents (Elt F))
    (w : (⟨S800000, .f32⟩ : BufTy).Contents (Elt F)) : (⟨S800000x64, .f32⟩ : BufTy).Contents (Elt F) :=
  mulf (Host.gather gather_S50000x64_S800000x1_S800000x64_1_0_n_n_0_1_164 h
      (broadcastInDim S800000x1 ![0] bcast_S800000_S800000x1_0 (sourceIndex (F := F) e)))
    (broadcastInDim S800000x64 ![0, 1] bcast_S800000x1_S800000x64_0_1 (broadcastInDim S800000x1 ![0] bcast_S800000_S800000x1_0 w))

/-- The aggregated array: every edge's message added into its destination node's row, from zeros. -/
def aggregate (h : (⟨S50000x64, .f32⟩ : BufTy).Contents (Elt F)) (e : (⟨S2x800000, .i32⟩ : BufTy).Contents (Elt F))
    (w : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (destRow (F := F) e))
    (messages h e w)

variable (m : (ℓ : Loc nD τ sig) → Buf (Elt F) ℓ) (ρ : Dev nD → PrngReg)

/-- The aggregated array the second region's inputs are cut from, over the first region's exit contents. -/
abbrev agg (c : Dev nD) : (⟨S50000x64, .f32⟩ : BufTy).Contents (Elt F) :=
  aggregate (W1 m ρ c (Proc.devRef .tc main_v0)) (W1 m ρ c (Proc.devRef .tc main_arg1)) (W1 m ρ c (Proc.devRef .tc main_arg2))

/-- The second region finds the first row half of the aggregated array in its window 0's array … -/
theorem first_half (c : Dev nD) :
    (V2 m ρ c main_v18 : (⟨S25000x64, .f32⟩ : BufTy).Contents (Elt F))
      = extractStridedSlice S25000x64 ![0, 0] (agg m ρ c) slices_S50000x64_S25000x64_0_0 := by
  show StableHlo.after hostOps1 (W1 m ρ c) (Proc.devRef .tc main_v18) = _
  after_results
  rfl

/-- … the second row half in its window 1's array … -/
theorem second_half (c : Dev nD) :
    (V2 m ρ c main_v19 : (⟨S25000x64, .f32⟩ : BufTy).Contents (Elt F))
      = extractStridedSlice S25000x64 ![25000, 0] (agg m ρ c) slices_S50000x64_S25000x64_25000_0 := by
  show StableHlo.after hostOps1 (W1 m ρ c) (Proc.devRef .tc main_v19) = _
  after_results
  rfl

/-- … the upper 64 rows of the second weight matrix … -/
theorem upper_weights (c : Dev nD) :
    (V2 m ρ c main_v20 : (⟨S64x64, .f32⟩ : BufTy).Contents (Elt F))
      = extractStridedSlice S64x64 ![0, 0] (W1 m ρ c (Proc.devRef .tc main_arg6)) slices_S128x64_S64x64_0_0 := by
  show StableHlo.after hostOps1 (W1 m ρ c) (Proc.devRef .tc main_v20) = _
  after_results

/-- … its lower 64 rows … -/
theorem lower_weights (c : Dev nD) :
    (V2 m ρ c main_v21 : (⟨S64x64, .f32⟩ : BufTy).Contents (Elt F))
      = extractStridedSlice S64x64 ![64, 0] (W1 m ρ c (Proc.devRef .tc main_arg6)) slices_S128x64_S64x64_64_0 := by
  show StableHlo.after hostOps1 (W1 m ρ c) (Proc.devRef .tc main_v21) = _
  after_results

/-- … the first bias as one row … -/
theorem bias_row (c : Dev nD) :
    (V2 m ρ c main_v22 : (⟨S1x64, .f32⟩ : BufTy).Contents (Elt F))
      = shapeCast _ (W1 m ρ c (Proc.devRef .tc main_arg4)) shapeCasts_S64_S1x64 := by
  show StableHlo.after hostOps1 (W1 m ρ c) (Proc.devRef .tc main_v22) = _
  after_results
  rfl

/-- … the slopes as one row … -/
theorem slope_row (c : Dev nD) :
    (V2 m ρ c main_v23 : (⟨S1x64, .f32⟩ : BufTy).Contents (Elt F))
      = shapeCast _ (W1 m ρ c (Proc.devRef .tc main_arg5)) shapeCasts_S64_S1x64 := by
  show StableHlo.after hostOps1 (W1 m ρ c) (Proc.devRef .tc main_v23) = _
  after_results
  rfl

/-- … and the last bias as one row. -/
theorem last_bias_row (c : Dev nD) :
    (V2 m ρ c main_v24 : (⟨S1x64, .f32⟩ : BufTy).Contents (Elt F))
      = shapeCast _ (W1 m ρ c (Proc.devRef .tc main_arg7)) shapeCasts_S64_S1x64 := by
  show StableHlo.after hostOps1 (W1 m ρ c) (Proc.devRef .tc main_v24) = _
  after_results
  rfl

/-! The first region writes only its own output array: every argument array it does not stage is as launched. -/

theorem exit_arg1 (c : Dev nD) : W1 m ρ c (Proc.devRef .tc main_arg1) = m ((c : Thread nD τ).loc main_arg1) :=
  W1_of_ne m ρ c main_arg1 (by decide)
theorem exit_arg2 (c : Dev nD) : W1 m ρ c (Proc.devRef .tc main_arg2) = m ((c : Thread nD τ).loc main_arg2) :=
  W1_of_ne m ρ c main_arg2 (by decide)
theorem exit_arg4 (c : Dev nD) : W1 m ρ c (Proc.devRef .tc main_arg4) = m ((c : Thread nD τ).loc main_arg4) :=
  W1_of_ne m ρ c main_arg4 (by decide)
theorem exit_arg5 (c : Dev nD) : W1 m ρ c (Proc.devRef .tc main_arg5) = m ((c : Thread nD τ).loc main_arg5) :=
  W1_of_ne m ρ c main_arg5 (by decide)
theorem exit_arg6 (c : Dev nD) : W1 m ρ c (Proc.devRef .tc main_arg6) = m ((c : Thread nD τ).loc main_arg6) :=
  W1_of_ne m ρ c main_arg6 (by decide)
theorem exit_arg7 (c : Dev nD) : W1 m ρ c (Proc.devRef .tc main_arg7) = m ((c : Thread nD τ).loc main_arg7) :=
  W1_of_ne m ρ c main_arg7 (by decide)

/-- Its output array is what its write-backs leave. -/
theorem exit_product (c : Dev nD) :
    W1 m ρ c (Proc.devRef .tc main_v0) = (dat0 (V0 m ρ) c).arrAt 2 cfg0.N :=
  W1_arr m ρ c 2

end Cert.KernelIdeal.EdgeStretch

end
-- ==== Proof.HalvesJoin.lean ====
/-
  The layer computed from the two row halves is the layer of the whole arrays.

  Cut the aggregated array `A` into its rows 0 … 24999 and 25000 … 49999, cut the weights `W` into their rows
  0 … 63 and 64 … 127, and view each 64-vector as a single row.  Entry (p, k) of the first half is A(p, k), of the
  second half A(p + 25000, k); entry (k, q) of the upper weights is W(k, q), of the lower weights W(k + 64, q); entry
  (0, k) of a vector viewed as a row is its entry k.  Substituting these into the two-halves form gives the
  whole-array form term by term.
-/
import proofs.«136194_j58334245814643_1_alg».proof.Proof.LayerSpec
import Idealize.ShloMosaic.Lib.Pipeline.Value
import Idealize.ShloMosaic.Lib.ValueLayout

noncomputable section

open scoped BigOperators

namespace Cert.NodeLayer

open Idealize.ShloMosaic Idealize.ShloMosaic.ValueIdx

theorem halves_of_cuts (A : FVec Ideal ⟨2, ![50000, 64]⟩ .f32) (b s : FVec Ideal ⟨1, ![64]⟩ .f32)
    (W : FVec Ideal ⟨2, ![128, 64]⟩ .f32) (d : FVec Ideal ⟨1, ![64]⟩ .f32)
    (hA0 : (⟨2, ![50000, 64]⟩ : Shape).Slices ![0, 0] ⟨2, ![25000, 64]⟩)
    (hA1 : (⟨2, ![50000, 64]⟩ : Shape).Slices ![25000, 0] ⟨2, ![25000, 64]⟩)
    (hW0 : (⟨2, ![128, 64]⟩ : Shape).Slices ![0, 0] ⟨2, ![64, 64]⟩)
    (hW1 : (⟨2, ![128, 64]⟩ : Shape).Slices ![64, 0] ⟨2, ![64, 64]⟩)
    (hc : (⟨1, ![64]⟩ : Shape).ShapeCasts ⟨2, ![1, 64]⟩) :
    halves (extractStridedSlice ⟨2, ![25000, 64]⟩ ![0, 0] A hA0) (extractStridedSlice ⟨2, ![25000, 64]⟩ ![25000, 0] A hA1)
        (shapeCast ⟨2, ![1, 64]⟩ b hc) (shapeCast ⟨2, ![1, 64]⟩ s hc)
        (extractStridedSlice ⟨2, ![64, 64]⟩ ![0, 0] W hW0) (extractStridedSlice ⟨2, ![64, 64]⟩ ![64, 0] W hW1)
        (shapeCast ⟨2, ![1, 64]⟩ d hc)
      = layer A b s W d := by
  funext i
  obtain ⟨p, q, rfl⟩ : ∃ (p : Fin 25000) (q : Fin 64), i = ix2 p q := ⟨i 0, i 1, eq_ix2 i⟩
  show halvesAt _ _ _ _ _ _ _ p q = layerAt A b s W d p q
  unfold halvesAt layerAt
  have hb : ∀ k : Fin 64, shapeCast ⟨2, ![1, 64]⟩ b hc (ix2 (0 : Fin 1) k) = b (ix1 k) :=
    fun k => shapeCast_a_1a_apply b hc 0 k
  have hs : ∀ k : Fin 64, shapeCast ⟨2, ![1, 64]⟩ s hc (ix2 (0 : Fin 1) k) = s (ix1 k) :=
    fun k => shapeCast_a_1a_apply s hc 0 k
  have hd : ∀ k : Fin 64, shapeCast ⟨2, ![1, 64]⟩ d hc (ix2 (0 : Fin 1) k) = d (ix1 k) :=
    fun k => shapeCast_a_1a_apply d hc 0 k
  have h1 : ∀ k : Fin 64, extractStridedSlice ⟨2, ![25000, 64]⟩ ![0, 0] A hA0 (ix2 p k)
      = A (ix2 (⟨p.val, by have := p.isLt; omega⟩ : Fin 50000) k) :=
    fun k => slice2_axis0_apply 0 A hA0 p k _ (Nat.zero_add _).symm
  have h2 : ∀ k : Fin 64, extractStridedSlice ⟨2, ![25000, 64]⟩ ![25000, 0] A hA1 (ix2 p k)
      = A (ix2 (⟨p.val + 25000, by have := p.isLt; omega⟩ : Fin 50000) k) :=
    fun k => slice2_axis0_apply 25000 A hA1 p k _ (Nat.add_comm _ _)
  have h3 : ∀ k : Fin 64, extractStridedSlice ⟨2, ![64, 64]⟩ ![0, 0] W hW0 (ix2 k q)
      = W (ix2 (⟨k.val, by have := k.isLt; omega⟩ : Fin 128) q) :=
    fun k => slice2_axis0_apply 0 W hW0 k q _ (Nat.zero_add _).symm
  have h4 : ∀ k : Fin 64, extractStridedSlice ⟨2, ![64, 64]⟩ ![64, 0] W hW1 (ix2 k q)
      = W (ix2 (⟨k.val + 64, by have := k.isLt; omega⟩ : Fin 128) q) :=
    fun k => slice2_axis0_apply 64 W hW1 k q _ (Nat.add_comm _ _)
  simp only [hb, hs, hd, h1, h2, h3, h4]

end Cert.NodeLayer

end
-- ==== Proof.RefLayer.lean ====
/-
  The reference program's result, one operation at a time, is the node layer of the aggregated array.

  Write `A` for the aggregated array (the program's stage 17, kept closed).  Stages 18 to 26 add the bias row to
  every row of `A`, compare with zero, multiply by the slope row and select: entry (n, k) becomes
  `act (A (n, k)) (b k) (s k)`.  Stages 27 and 28 are the upper and lower 25000 rows, stage 29 puts row `p` of the
  upper half in front of row `p` of the lower half, stage 30 multiplies the 128-long row by the weights, and
  stages 31 to 34 add the last bias and clamp below at zero.  The 128-term sum of stage 30 splits into the first 64
  terms (which read the upper half) and the last 64 (which read the lower half).
-/
import proofs.«136194_j58334245814643_1_alg».proof.Proof.Gen.ReferenceIdeal.Read
import proofs.«136194_j58334245814643_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Layer

open Cert.ReferenceIdeal Cert.ReferenceIdeal.Read Idealize.ShloMosaic Idealize.ShloMosaic.ValueIdx

/-- Stage 26 at (n, k): the aggregated entry, biased, through the slope nonlinearity. -/
theorem v26_at (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x64, .f32⟩ : BufTy).Contents (Elt Ideal)) (x4 x5 : (⟨S64, .f32⟩ : BufTy).Contents (Elt Ideal)) (n : Fin 50000) (k : Fin 64) :
    val_main_v26 (F := Ideal) x0 x1 x2 x3 x4 x5 (ix2 n k)
      = Cert.NodeLayer.act (val_main_v17 (F := Ideal) x0 x1 x2 x3 (ix2 n k)) (x4 (ix1 k)) (x5 (ix1 k)) := by
  rw [val_main_v26_apply, val_main_v22_apply, val_main_v25_apply, val_main_v20_apply, val_main_v19_apply,
    val_main_v18_apply, val_main_v24_apply, val_main_v23_apply, val_main_v21_apply, val_main_cst_1_apply]
  -- both broadcast rows are read at channel k
  have eb : idx_main_v18 (idx_main_v19 (ix2 n k)) = ix1 k :=
    funext fun a => Fin.ext (by match a with | ⟨0, _⟩ => rfl)
  have es : idx_main_v23 (idx_main_v24 (ix2 n k)) = ix1 k :=
    funext fun a => Fin.ext (by match a with | ⟨0, _⟩ => rfl)
  rw [eb, es]
  rfl

/-- Stage 29 at (p, k) with the joined coordinate below 64: row p of the upper half. -/
theorem v29_left (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x64, .f32⟩ : BufTy).Contents (Elt Ideal)) (x4 x5 : (⟨S64, .f32⟩ : BufTy).Contents (Elt Ideal)) (p : Fin 25000) (k : Fin 64) :
    val_main_v29 (F := Ideal) x0 x1 x2 x3 x4 x5 (ix2 p (⟨k.val, by have := k.isLt; omega⟩ : Fin 128))
      = val_main_v27 (F := Ideal) x0 x1 x2 x3 x4 x5 (ix2 p k) := by
  unfold val_main_v29
  exact concatenate_pair_apply_left (t := S25000x128) (s₁ := S25000x64) (s₂ := S25000x64) (1 : Fin 2) _ _ _ _ rfl
    (ix2 p k) (by
      intro b
      match b with
      | ⟨0, _⟩ => rfl
      | ⟨1, _⟩ => rfl)

/-- Stage 29 at (p, k + 64): row p of the lower half, at channel k. -/
theorem v29_right (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x64, .f32⟩ : BufTy).Contents (Elt Ideal)) (x4 x5 : (⟨S64, .f32⟩ : BufTy).Contents (Elt Ideal)) (p : Fin 25000) (k : Fin 64) :
    val_main_v29 (F := Ideal) x0 x1 x2 x3 x4 x5 (ix2 p (⟨k.val + 64, by have := k.isLt; omega⟩ : Fin 128))
      = val_main_v28 (F := Ideal) x0 x1 x2 x3 x4 x5 (ix2 p k) := by
  unfold val_main_v29
  exact concatenate_pair_apply_right (t := S25000x128) (s₁ := S25000x64) (s₂ := S25000x64) (1 : Fin 2) _ _ _ _ rfl rfl
    (ix2 p k) (by
      intro b hb
      match b with
      | ⟨0, _⟩ => rfl
      | ⟨1, _⟩ => exact absurd rfl hb) rfl

/-- The reference program's result is the node layer of the aggregated array. -/
theorem ref_is_layer (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x64, .f32⟩ : BufTy).Contents (Elt Ideal)) (x4 x5 : (⟨S64, .f32⟩ : BufTy).Contents (Elt Ideal)) (x6 : (⟨S128x64, .f32⟩ : BufTy).Contents (Elt Ideal)) (x7 : (⟨S64, .f32⟩ : BufTy).Contents (Elt Ideal)) :
    val_main_v34 (F := Ideal) x0 x1 x2 x3 x4 x5 x6 x7 = Cert.NodeLayer.layer (val_main_v17 (F := Ideal) x0 x1 x2 x3) x4 x5 x6 x7 := by
  funext i
  obtain ⟨p, q, rfl⟩ : ∃ (p : Fin 25000) (q : Fin 64), i = ix2 p q := ⟨i 0, i 1, eq_ix2 i⟩
  show _ = Cert.NodeLayer.layerAt (val_main_v17 (F := Ideal) x0 x1 x2 x3) x4 x5 x6 x7 p q
  unfold Cert.NodeLayer.layerAt
  -- the clamp, the last bias and the product, then the 128-term sum as two sums of 64
  rw [val_main_v34_apply, val_main_v33_apply, val_main_v30_apply, val_main_v32_apply, val_main_v31_apply,
    val_main_call1_v0_apply, val_main_call1_cst_apply, Cert.NodeLayer.sum_halves]
  -- the last bias is read at channel q
  have ed : idx_main_v31 (idx_main_v32 (ix2 p q)) = ix1 q :=
    funext fun a => Fin.ext (by match a with | ⟨0, _⟩ => rfl)
  rw [ed]
  -- a term of the first sum: the joined row at k is node p's entry k, against row k of the weights
  have hL : ∀ k : Fin 64,
      val_main_v29 (F := Ideal) x0 x1 x2 x3 x4 x5
            (lidx_main_v30 (ix2 p q) (⟨k.val, by have := k.isLt; omega⟩ : Fin 128))
          * x6 (ridx_main_v30 (ix2 p q) (⟨k.val, by have := k.isLt; omega⟩ : Fin 128))
        = Cert.NodeLayer.act
            (val_main_v17 (F := Ideal) x0 x1 x2 x3 (ix2 (⟨p.val, by have := p.isLt; omega⟩ : Fin 50000) k))
            (x4 (ix1 k)) (x5 (ix1 k))
          * x6 (ix2 (⟨k.val, by have := k.isLt; omega⟩ : Fin 128) q) := by
    intro k
    have el : lidx_main_v30 (ix2 p q) (⟨k.val, by have := k.isLt; omega⟩ : Fin 128)
        = ix2 p (⟨k.val, by have := k.isLt; omega⟩ : Fin 128) :=
      funext fun a => Fin.ext (by match a with | ⟨0, _⟩ => rfl | ⟨1, _⟩ => rfl)
    have er : ridx_main_v30 (ix2 p q) (⟨k.val, by have := k.isLt; omega⟩ : Fin 128)
        = ix2 (⟨k.val, by have := k.isLt; omega⟩ : Fin 128) q :=
      funext fun a => Fin.ext (by match a with | ⟨0, _⟩ => rfl | ⟨1, _⟩ => rfl)
    have e27 : idx_main_v27 (ix2 p k) = ix2 (⟨p.val, by have := p.isLt; omega⟩ : Fin 50000) k :=
      funext fun a => Fin.ext (by match a with | ⟨0, _⟩ => rfl | ⟨1, _⟩ => rfl)
    rw [el, er, v29_left, val_main_v27_apply, e27, v26_at]
  -- a term of the second sum: the joined row at k + 64 is node (p + 25000)'s entry k, against row k + 64
  have hR : ∀ k : Fin 64,
      val_main_v29 (F := Ideal) x0 x1 x2 x3 x4 x5
            (lidx_main_v30 (ix2 p q) (⟨k.val + 64, by have := k.isLt; omega⟩ : Fin 128))
          * x6 (ridx_main_v30 (ix2 p q) (⟨k.val + 64, by have := k.isLt; omega⟩ : Fin 128))
        = Cert.NodeLayer.act
            (val_main_v17 (F := Ideal) x0 x1 x2 x3 (ix2 (⟨p.val + 25000, by have := p.isLt; omega⟩ : Fin 50000) k))
            (x4 (ix1 k)) (x5 (ix1 k))
          * x6 (ix2 (⟨k.val + 64, by have := k.isLt; omega⟩ : Fin 128) q) := by
    intro k
    have el : lidx_main_v30 (ix2 p q) (⟨k.val + 64, by have := k.isLt; omega⟩ : Fin 128)
        = ix2 p (⟨k.val + 64, by have := k.isLt; omega⟩ : Fin 128) :=
      funext fun a => Fin.ext (by match a with | ⟨0, _⟩ => rfl | ⟨1, _⟩ => rfl)
    have er : ridx_main_v30 (ix2 p q) (⟨k.val + 64, by have := k.isLt; omega⟩ : Fin 128)
        = ix2 (⟨k.val + 64, by have := k.isLt; omega⟩ : Fin 128) q :=
      funext fun a => Fin.ext (by match a with | ⟨0, _⟩ => rfl | ⟨1, _⟩ => rfl)
    have e28 : idx_main_v28 (ix2 p k) = ix2 (⟨p.val + 25000, by have := p.isLt; omega⟩ : Fin 50000) k :=
      funext fun a => Fin.ext (by
        match a with
        | ⟨0, _⟩ => show 25000 + p.val = p.val + 25000; omega
        | ⟨1, _⟩ => rfl)
    rw [el, er, v29_right, val_main_v28_apply, e28, v26_at]
  rw [Finset.sum_congr rfl (fun k _ => hL k), Finset.sum_congr rfl (fun k _ => hR k)]
  rfl

end Cert.ReferenceIdeal.Layer

end
-- ==== Proof.Bridge.lean ====
/-
  Both programs end holding the node layer of the same aggregated array.

  Kernel side.  The result array is the second region's output, which is the two-halves layer of the arrays that
  region finds; those are cuts and row views of the aggregated array, of the second weight matrix and of the three
  64-vectors; the aggregated array is `aggregate` of the first region's output, which is the whole product of the
  node features and the first weights.  The argument arrays reach both regions as launched.

  Reference side.  The result is the layer of its stage 17, which is the same `aggregate` of its stage 0, the host's
  product of the same two matrices; at an index both products are the sum over k < 128 of X(n, k) · W(k, q).
-/
import proofs.«136194_j58334245814643_1_alg».proof.Proof.MatRegion
import proofs.«136194_j58334245814643_1_alg».proof.Proof.CatRegion
import proofs.«136194_j58334245814643_1_alg».proof.Proof.EdgeStretch
import proofs.«136194_j58334245814643_1_alg».proof.Proof.HalvesJoin
import proofs.«136194_j58334245814643_1_alg».proof.Proof.RefLayer

set_option maxRecDepth 16384

noncomputable section

open scoped BigOperators

namespace Cert.Bridge

open Idealize.ShloMosaic Idealize.ShloMosaic.ValueIdx Idealize.ShloMosaic.TcCoe Idealize.SL.Sem

/-- The layer both programs compute, of the argument arrays: features `x0`, edge table `x1`, edge weights `x2`,
    first weights `x3`, first bias `x4`, slopes `x5`, second weights `x6`, last bias `x7`. -/
def result (x0 : FVec Ideal ⟨2, ![50000, 128]⟩ .f32) (x1 : IVec ⟨2, ![2, 800000]⟩ 32) (x2 : FVec Ideal ⟨1, ![800000]⟩ .f32)
    (x3 : FVec Ideal ⟨2, ![128, 64]⟩ .f32) (x4 x5 : FVec Ideal ⟨1, ![64]⟩ .f32) (x6 : FVec Ideal ⟨2, ![128, 64]⟩ .f32)
    (x7 : FVec Ideal ⟨1, ![64]⟩ .f32) : FVec Ideal ⟨2, ![25000, 64]⟩ .f32 :=
  Cert.NodeLayer.layer
    (Cert.KernelIdeal.EdgeStretch.aggregate (F := Ideal) (Cert.KernelIdeal.MatRegion.product x0 x3) x1 x2) x4 x5 x6 x7

/-! ## The reference -/

section Reference
open Cert.ReferenceIdeal Cert.ReferenceIdeal.Read

/-- The host's product of the features and the first weights is the whole product, entry by entry. -/
theorem ref_product (x0 : (⟨S50000x128, .f32⟩ : BufTy).Contents (Elt Ideal)) (x3 : (⟨S128x64, .f32⟩ : BufTy).Contents (Elt Ideal)) :
    val_main_v0 (F := Ideal) x0 x3 = Cert.KernelIdeal.MatRegion.product x0 x3 := by
  funext i
  obtain ⟨n, q, rfl⟩ : ∃ (n : Fin 50000) (q : Fin 64), i = ix2 n q := ⟨i 0, i 1, eq_ix2 i⟩
  rw [val_main_v0_apply]
  unfold Cert.KernelIdeal.MatRegion.product
  refine Finset.sum_congr rfl fun k _ => ?_
  have el : lidx_main_v0 (ix2 n q) k = ix2 n k :=
    funext fun a => Fin.ext (by match a with | ⟨0, _⟩ => rfl | ⟨1, _⟩ => rfl)
  have er : ridx_main_v0 (ix2 n q) k = ix2 k q :=
    funext fun a => Fin.ext (by match a with | ⟨0, _⟩ => rfl | ⟨1, _⟩ => rfl)
  rw [el, er]

/-- The reference's aggregated array is the same gather, scaling and scatter-add of its product. -/
theorem ref_aggregate (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x64, .f32⟩ : BufTy).Contents (Elt Ideal)) :
    val_main_v17 (F := Ideal) x0 x1 x2 x3
      = Cert.KernelIdeal.EdgeStretch.aggregate (F := Ideal) (val_main_v0 (F := Ideal) x0 x3) x1 x2 := rfl

/-- The reference's result is `result` of the argument arrays. -/
theorem ref_result (m : (ℓ : Loc nD τ sig) → Buf (Elt Ideal) ℓ) (c : Dev nD) :
    Cert.ReferenceIdeal.Value.res_main_v34 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [val_main_v34_eq, Cert.ReferenceIdeal.Layer.ref_is_layer, ref_aggregate, ref_product]
  rfl

end Reference

/-! ## The kernel -/

section Kernel
open Cert.KernelIdeal Cert.KernelIdeal.Gen Cert.KernelIdeal.EdgeStretch

variable (m : (ℓ : Loc nD τ sig) → Buf (Elt Ideal) ℓ) (ρ : Dev nD → PrngReg)

/-- After the first region its output array holds the whole product of the launched features and first weights. -/
theorem exit_product_eq (c : Dev nD) :
    W1 m ρ c (Proc.devRef .tc main_v0)
      = Cert.KernelIdeal.MatRegion.product (m ((c : Thread nD τ).loc main_arg0)) (m ((c : Thread nD τ).loc main_arg3)) :=
  (exit_product m ρ c).trans (Cert.KernelIdeal.MatRegion.region_array (V0 m ρ) c)

/-- The kernel's result array, at the last boundary, is `result` of the launched argument arrays. -/
theorem kernel_result (c : Dev nD) :
    W3 m ρ c (Proc.devRef .tc main_v25)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W3_arr m ρ c 7).trans ?_
  refine (Cert.KernelIdeal.CatRegion.region_array (V2 m ρ) c).trans ?_
  rw [first_half, second_half, upper_weights, lower_weights, bias_row, slope_row, last_bias_row]
  unfold agg
  rw [exit_arg1, exit_arg2, exit_arg4, exit_arg5, exit_arg6, exit_arg7, exit_product_eq]
  unfold result
  exact Cert.NodeLayer.halves_of_cuts _ _ _ _ _ _ _ _ _ _

end Kernel

end Cert.Bridge

end
-- ==== Proof.lean ====
/-
  The certificate of a graph layer computed in two kernel regions against its plain reference.

  Both programs take node features X (50000 × 128), an edge table (2 × 800000), edge weights, first weights
  (128 × 64), a bias and per-channel slopes (64 each), second weights (128 × 64) and a last bias (64), and return a
  25000 × 64 array.  Both form H = X · (first weights), gather a row of H per edge at the edge's source, scale it by the
  edge's weight and add it into the row of the edge's destination; then bias every entry, keep it where positive and
  scale it by its channel's slope elsewhere; join node p with node p + 25000 into one 128-long row, multiply by the
  second weights, add the last bias and clamp below at zero.

  The kernel forms H in a first region, ten row blocks at a time, leaves the gather and scatter-add to host
  operations, and computes the rest in a second region, five row blocks at a time, as the first half's rows against
  the upper 64 rows of the second weights plus the second half's rows against the lower 64.  Read on the extended
  reals, where a change of float format is the identity and every product into a zero accumulator is a plain sum, the
  two programs differ only in that regrouping of a 128-term sum into two 64-term sums, which is associativity and
  commutativity of addition; the gather and the scatter-add are the same two operations on equal operands.  No
  finiteness of the inputs is used.

  The idealized kernel is the kernel's own text read on the extended reals (no rewrite was applied), so that
  conjunct is trivial.  The two kernel programs' frames are the generated ones; the reference's is its run with the
  result forgotten.
-/
import proofs.«136194_j58334245814643_1_alg».proof.Defs
import proofs.«136194_j58334245814643_1_alg».proof.Proof.Gen.Kernel
import proofs.«136194_j58334245814643_1_alg».proof.Proof.Gen.Kernel.Skeleton
import proofs.«136194_j58334245814643_1_alg».proof.Proof.Gen.Kernel.Launch
import proofs.«136194_j58334245814643_1_alg».proof.Proof.Gen.Kernel.Points
import proofs.«136194_j58334245814643_1_alg».proof.Proof.Gen.Kernel.Frame
import proofs.«136194_j58334245814643_1_alg».proof.Proof.Gen.KernelIdeal
import proofs.«136194_j58334245814643_1_alg».proof.Proof.Gen.KernelIdeal.Skeleton
import proofs.«136194_j58334245814643_1_alg».proof.Proof.Gen.KernelIdeal.Launch
import proofs.«136194_j58334245814643_1_alg».proof.Proof.Gen.KernelIdeal.Points
import proofs.«136194_j58334245814643_1_alg».proof.Proof.Gen.KernelIdeal.Frame
import proofs.«136194_j58334245814643_1_alg».proof.Proof.Gen.ReferenceIdeal
import proofs.«136194_j58334245814643_1_alg».proof.Proof.Gen.Pre_finite_inputs
import proofs.«136194_j58334245814643_1_alg».proof.Proof.Gen.ReferenceIdeal.Run
import proofs.«136194_j58334245814643_1_alg».proof.Proof.Gen.ReferenceIdeal.Read
import proofs.«136194_j58334245814643_1_alg».proof.Proof.KernelRun
import proofs.«136194_j58334245814643_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories agreeing on the arguments both programs end with the layer `Cert.Bridge.result` of the arguments. -/
theorem algebraic : Cert.algebraic_KernelIdeal_ReferenceIdeal := by
  intro m ρ m' ρ' _ hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel: every outliving buffer at the last boundary's contents; the result array and the arguments among them
    refine (θ_run Cert.KernelIdeal.defs _ _).mono (fun r h c => ?_) (Cert.KernelIdeal.WholeRun.run_boundary (F := Ideal) m ρ)
    exact ⟨(h c _ (Cert.KernelIdeal.Gen.mem_uc Cert.KernelIdeal.main_v25 (by decide))).trans (Cert.Bridge.kernel_result m ρ c),
      (h c _ (Cert.KernelIdeal.Gen.mem_uc Cert.KernelIdeal.main_arg0 (by decide))).trans (Cert.KernelIdeal.Gen.W3_main_arg0 m ρ c),
      (h c _ (Cert.KernelIdeal.Gen.mem_uc Cert.KernelIdeal.main_arg1 (by decide))).trans (Cert.KernelIdeal.Gen.W3_main_arg1 m ρ c),
      (h c _ (Cert.KernelIdeal.Gen.mem_uc Cert.KernelIdeal.main_arg2 (by decide))).trans (Cert.KernelIdeal.Gen.W3_main_arg2 m ρ c),
      (h c _ (Cert.KernelIdeal.Gen.mem_uc Cert.KernelIdeal.main_arg3 (by decide))).trans (Cert.KernelIdeal.Gen.W3_main_arg3 m ρ c),
      (h c _ (Cert.KernelIdeal.Gen.mem_uc Cert.KernelIdeal.main_arg4 (by decide))).trans (Cert.KernelIdeal.Gen.W3_main_arg4 m ρ c),
      (h c _ (Cert.KernelIdeal.Gen.mem_uc Cert.KernelIdeal.main_arg5 (by decide))).trans (Cert.KernelIdeal.Gen.W3_main_arg5 m ρ c),
      (h c _ (Cert.KernelIdeal.Gen.mem_uc Cert.KernelIdeal.main_arg6 (by decide))).trans (Cert.KernelIdeal.Gen.W3_main_arg6 m ρ c),
      (h c _ (Cert.KernelIdeal.Gen.mem_uc Cert.KernelIdeal.main_arg7 (by decide))).trans (Cert.KernelIdeal.Gen.W3_main_arg7 m ρ c)⟩
  · -- the reference: its run's term is the same layer of its own arguments, which agree with the kernel's
    refine (θ_run Cert.ReferenceIdeal.defs _ _).mono (fun _ h c => ⟨(h c).1.trans ?_, (h c).2⟩)
      (Cert.ReferenceIdeal.Value.run (F := Ideal) m' ρ')
    rw [Cert.Bridge.ref_result, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
